-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S128x4096 : Shape := ⟨2, ![128, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  shapeCasts_S4096_S1x4096 : S4096.ShapeCasts S1x4096
  inb_S128x4096_S128x4096_0_0 : ∀ a, (![0, 0] : Fin 2 → Nat) a + S128x4096.size a ≤ S128x4096.size a
  h_S128x4096 : 0 < S128x4096.numel
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  dot_S128x4096_S4096x4096_S128x4096_1_1_0_0_n_n_wf : DotDims.WF S128x4096 S4096x4096 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S8192x4096.size a
  hwx0_0 : ∀ i : grid0.Coords, EltTy.bits .f32 = 32 ∨ (Rect.block (s := S8192x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S8192x4096.size a
  hwx0_3 : ∀ i : grid0.Coords, EltTy.bits .f32 = 32 ∨ (Rect.block (s := S8192x4096) S128x4096.size (cc0_transform_3 i) (hinb0_3 i)).WholeWords (EltTy.packing .f32)

variable [Facts₀]

def dot_S128x4096_S4096x4096_S128x4096_1_1_0_0_n_n : DotDims S128x4096 S4096x4096 S128x4096 where
  lhsContracting := [1]
  rhsContracting := [1]
  lhsNonContracting := [0]
  rhsNonContracting := [0]
  lhsBatch := []
  rhsBatch := []
  wf := dot_S128x4096_S4096x4096_S128x4096_1_1_0_0_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The specification both programs are compared with: a dense affine layer followed by a rectifier,
      y[r, n] = max (Σ_k x[r, k] · w[n, k] + b[n]) 0        (r < 8192, n < 4096, k < 4096),
  over the extended reals — every row of `x` against every row of `w` (so the product is with the TRANSPOSE of `w`),
  the bias of column `n` added, the result clamped below at zero. The sum is a finite sum in the commutative monoid of the
  extended reals, so neither the order of its terms nor any tiling of its rows matters, and no finiteness of the entries is
  used anywhere: both programs are shown to compute exactly these terms.
-/
import Idealize.ShloMosaic.PureOps.Ideal
import Idealize.ShloMosaic.Lib.ValueIdx

noncomputable section

open scoped BigOperators

namespace Cert.AffineRelu

open Idealize.ShloMosaic Idealize.ShloMosaic.ValueIdx

/-- The shape of the activations `x` and of the result `y`. -/
abbrev Acts : Shape := ⟨2, ![8192, 4096]⟩
/-- The shape of the weight matrix `w` (one ROW per output column). -/
abbrev Wts : Shape := ⟨2, ![4096, 4096]⟩
/-- The shape of the bias vector `b`. -/
abbrev Bias : Shape := ⟨1, ![4096]⟩

/-- Entry `(r, n)` of the result: row `r` of `x` against row `n` of `w`, plus `b n`, clamped below at `0`. -/
def entry (x : Acts.Idx → EReal) (w : Wts.Idx → EReal) (b : Bias.Idx → EReal) (r : Fin 8192) (n : Fin 4096) : EReal :=
  max ((∑ k : Fin 4096, x (ix2 r k) * w (ix2 n k)) + b (ix1 n)) 0

/-- The whole result array, index by index. -/
def result (x : Acts.Idx → EReal) (w : Wts.Idx → EReal) (b : Bias.Idx → EReal) : Acts.Idx → EReal :=
  fun i => entry x w b ⟨(i 0).val, (i 0).isLt⟩ ⟨(i 1).val, (i 1).isLt⟩

/-- The result at an index whose two coordinates are known is that entry. -/
theorem result_apply (x : Acts.Idx → EReal) (w : Wts.Idx → EReal) (b : Bias.Idx → EReal) (i : Acts.Idx)
    (r : Fin 8192) (n : Fin 4096) (h0 : (i 0).val = r.val) (h1 : (i 1).val = n.val) :
    result x w b i = entry x w b r n := by
  have e0 : (⟨(i 0).val, (i 0).isLt⟩ : Fin 8192) = r := Fin.ext h0
  have e1 : (⟨(i 1).val, (i 1).isLt⟩ : Fin 4096) = n := Fin.ext h1
  show entry x w b ⟨(i 0).val, (i 0).isLt⟩ ⟨(i 1).val, (i 1).isLt⟩ = _
  rw [e0, e1]

end Cert.AffineRelu

end
-- ==== Proof.RefSide.lean ====
/-
  The reference computes the specification. Its program transposes the weights, contracts axis 1 of `x` with axis 0 of the
  transpose, repeats the bias down the rows (through a 1 × 4096 intermediate), adds, and takes the maximum with a zero
  splat. Read at an index `i = (r, n)`: the transpose read at `(k, n)` is the weights at `(n, k)`, so the contraction is
  Σ_k x[r, k] · w[n, k]; the twice-repeated bias read at `(r, n)` is `b n`; the zero word is the extended real `0`.
-/
import proofs.«129855_j65609920413834_2_alg».proof.Proof.Gen.ReferenceIdeal.Read
import proofs.«129855_j65609920413834_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx
open Cert.AffineRelu

/-- The left operand of the contraction at `(i, k)`: row `i 0`, column `k` of `x`. -/
theorem left_index (i : S8192x4096.Idx) (k : Fin 4096) :
    lidx_main_v1 i k = ix2 (⟨(i 0).val, (i 0).isLt⟩ : Fin 8192) k :=
  funext fun a => Fin.ext (by match a with | ⟨0, _⟩ => rfl | ⟨1, _⟩ => rfl)

/-- The right operand is the transpose read at `(k, i 1)`: row `i 1`, column `k` of the weights. -/
theorem right_index (i : S8192x4096.Idx) (k : Fin 4096) :
    idx_main_v0 (ridx_main_v1 i k) = ix2 (⟨(i 1).val, (i 1).isLt⟩ : Fin 4096) k :=
  funext fun a => Fin.ext (by match a with | ⟨0, _⟩ => rfl | ⟨1, _⟩ => rfl)

/-- The repeated bias at `i` is the bias at column `i 1`. -/
theorem bias_index (i : S8192x4096.Idx) :
    idx_main_v2 (idx_main_v3 i) = ix1 (⟨(i 1).val, (i 1).isLt⟩ : Fin 4096) :=
  funext fun a => Fin.ext (by match a with | ⟨0, _⟩ => rfl)

/-- THE REFERENCE'S RESULT is the specification of its three arguments. -/
theorem reference_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v5 (F := Ideal) x0 x1 x2 = result x0 x1 x2 := by
  funext i
  rw [val_main_v5_apply, val_main_v4_apply, val_main_v1_apply, val_main_v3_apply, val_main_v2_apply,
    val_main_call0_v0_apply, val_main_call0_cst_apply]
  simp only [val_main_v0_apply, left_index, right_index, bias_index]
  show max (_ + _) (Ideal.ofBits .f32 0x00000000#32) = _
  rw [Ideal.ofBits_zero_f32]
  rfl

end Cert.ReferenceIdeal.RefValue

end
-- ==== Proof.Payload.lean ====
/-
  What the kernel body stores, entry by entry. One call of the body sees a block of 128 rows of `x`, the whole weight matrix and
  the bias as a 1 × 4096 row; at the ideal values the narrowing of `x` to the matrix unit's input format is the identity, the
  matrix product into a zero accumulator is the plain sum over the contracted axis — axis 1 of BOTH operands, so row `p` of
  the block meets row `n` of the weights —, the bias row is repeated down the 128 rows, and the rectifier is the maximum with
  zero. So entry `(p, n)` of the stored block is  max (Σ_k x[p, k] · w[n, k] + b[0, n]) 0.
-/
import proofs.«129855_j65609920413834_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The contraction's operand indices

At output index `(p, n)` and contraction index `k` the left operand is read at `(p, k)` and the right one at `(n, k)`. -/

theorem lhs_row (i : S128x4096.Idx) (q : dot_S128x4096_S4096x4096_S128x4096_1_1_0_0_n_n.contr.Idx) :
    (dot_S128x4096_S4096x4096_S128x4096_1_1_0_0_n_n.lhsIdx i q 0).val = (i 0).val := by
  unfold DotDims.lhsIdx
  rw [dif_neg (show ¬(0 : Fin S128x4096.rank) ∈ dot_S128x4096_S4096x4096_S128x4096_1_1_0_0_n_n.lhsBatch by decide), dif_pos (show (0 : Fin S128x4096.rank) ∈ dot_S128x4096_S4096x4096_S128x4096_1_1_0_0_n_n.lhsNonContracting by decide)]
  rfl

theorem lhs_contr (i : S128x4096.Idx) (q : dot_S128x4096_S4096x4096_S128x4096_1_1_0_0_n_n.contr.Idx) :
    (dot_S128x4096_S4096x4096_S128x4096_1_1_0_0_n_n.lhsIdx i q 1).val = (q ⟨0, by decide⟩).val :=
  dot_S128x4096_S4096x4096_S128x4096_1_1_0_0_n_n.lhsIdx_val_of_single rfl i q

theorem rhs_row (i : S128x4096.Idx) (q : dot_S128x4096_S4096x4096_S128x4096_1_1_0_0_n_n.contr.Idx) :
    (dot_S128x4096_S4096x4096_S128x4096_1_1_0_0_n_n.rhsIdx i q 0).val = (i 1).val := by
  unfold DotDims.rhsIdx
  rw [dif_neg (show ¬(0 : Fin S4096x4096.rank) ∈ dot_S128x4096_S4096x4096_S128x4096_1_1_0_0_n_n.rhsBatch by decide), dif_pos (show (0 : Fin S4096x4096.rank) ∈ dot_S128x4096_S4096x4096_S128x4096_1_1_0_0_n_n.rhsNonContracting by decide)]
  rfl

theorem rhs_contr (i : S128x4096.Idx) (q : dot_S128x4096_S4096x4096_S128x4096_1_1_0_0_n_n.contr.Idx) :
    (dot_S128x4096_S4096x4096_S128x4096_1_1_0_0_n_n.rhsIdx i q 1).val = (q ⟨0, by decide⟩).val :=
  dot_S128x4096_S4096x4096_S128x4096_1_1_0_0_n_n.rhsIdx_val_of_single rfl i q

/-- The matrix product into the zero accumulator, at entry `(p, n)`: row `p` of the left operand against row `n` of the right. -/
theorem product_entry (a : FVec Ideal S128x4096 .bf16) (w : FVec Ideal S4096x4096 .bf16) (p : Fin 128) (n : Fin 4096) :
    matmul dot_S128x4096_S4096x4096_S128x4096_1_1_0_0_n_n none a w (constant (F := Ideal) S128x4096 .f32 0x00000000#32) (ix2 p n)
      = ∑ k : Fin 4096, a (ix2 p k) * w (ix2 n k) := by
  refine (Ideal.matmul_constant_zero_apply dot_S128x4096_S4096x4096_S128x4096_1_1_0_0_n_n none a w (ix2 p n)).trans ?_
  rw [← Equiv.sum_comp (contrEquiv1 dot_S128x4096_S4096x4096_S128x4096_1_1_0_0_n_n 4096 rfl rfl).symm]
  refine Finset.sum_congr rfl fun k _ => ?_
  have hk := contrEquiv1_symm_val dot_S128x4096_S4096x4096_S128x4096_1_1_0_0_n_n 4096 rfl rfl k
  have el : dot_S128x4096_S4096x4096_S128x4096_1_1_0_0_n_n.lhsIdx (ix2 p n) ((contrEquiv1 dot_S128x4096_S4096x4096_S128x4096_1_1_0_0_n_n 4096 rfl rfl).symm k) = ix2 p k := funext fun a => Fin.ext (by
    match a with
    | ⟨0, _⟩ => exact lhs_row _ _
    | ⟨1, _⟩ => exact (lhs_contr _ _).trans hk)
  have er : dot_S128x4096_S4096x4096_S128x4096_1_1_0_0_n_n.rhsIdx (ix2 p n) ((contrEquiv1 dot_S128x4096_S4096x4096_S128x4096_1_1_0_0_n_n 4096 rfl rfl).symm k) = ix2 n k := funext fun a => Fin.ext (by
    match a with
    | ⟨0, _⟩ => exact rhs_row _ _
    | ⟨1, _⟩ => exact (rhs_contr _ _).trans hk)
  rw [el, er]

/-- The bias row repeated down the block's rows: entry `(p, n)` is entry `(0, n)` of the row. -/
theorem bias_entry (b : FVec Ideal S1x4096 .f32) (h : S1x4096.Broadcasts S128x4096) (p : Fin 128) (n : Fin 4096) :
    broadcastTo S128x4096 b h (ix2 p n) = b (ix2 (0 : Fin 1) n) :=
  broadcastTo_apply b h (ix2 p n) (ix2 (0 : Fin 1) n) (fun a => match a with
    | ⟨0, _⟩ => by show (0 : Nat) = if (1 : Nat) = 1 then 0 else p.val; rw [if_pos rfl]
    | ⟨1, _⟩ => by show n.val = if (4096 : Nat) = 1 then 0 else n.val; rw [if_neg (by decide)])

/-- THE STORED VALUE at entry `(p, n)` of the block, from the three loaded values. -/
theorem stored_entry (x0 : Vec Ideal S128x4096 .f32) (x1 : Vec Ideal S4096x4096 .bf16) (x2 : Vec Ideal S1x4096 .f32)
    (p : Fin 128) (n : Fin 4096) :
    k0_pay1 x0 x1 x2 (ix2 p n)
      = max ((∑ k : Fin 4096, (x0 (ix2 p k) : EReal) * (x1 (ix2 n k) : EReal)) + (x2 (ix2 (0 : Fin 1) n) : EReal)) 0 := by
  unfold k0_pay1
  show max (matmul dot_S128x4096_S4096x4096_S128x4096_1_1_0_0_n_n none (truncf .bf16 x0 _) (shapeCast S4096x4096 x1 _) (constant (F := Ideal) S128x4096 .f32 0x00000000#32) (ix2 p n)
      + broadcastTo S128x4096 (shapeCast S1x4096 x2 _) _ (ix2 p n)) (Ideal.ofBits .f32 0x00000000#32) = _
  rw [shapeCast_self, shapeCast_self, product_entry, bias_entry, Ideal.ofBits_zero_f32]
  rfl

end Cert.KernelIdeal.Body

end
-- ==== Proof.KernelSide.lean ====
/-
  From blocks to the whole array. The grid has 64 points; point `t` stages rows `128·t … 128·t + 127` of `x`, the whole
  weight matrix and the whole bias row, and writes back rows `128·t … 128·t + 127` of the result. Before the grid starts the
  program narrows the weights' format (the identity at the ideal values) and re-lays the bias vector as a 1 × 4096 row (entry
  `(0, n)` of the row is entry `n` of the vector). So what point `t` writes back is block `t` of the specification of the three
  argument arrays; the 64 blocks are disjoint and together cover all 8192 rows (row `r` lies in block `r / 128`), hence the
  result array ends holding the specification everywhere.
-/
import proofs.«129855_j65609920413834_2_alg».proof.Proof.Gen.KernelIdeal.Value
import proofs.«129855_j65609920413834_2_alg».proof.Proof.Payload
import proofs.«129855_j65609920413834_2_alg».proof.Proof.Spec
import Idealize.ShloMosaic.Lib.Pipeline.Value
import Idealize.ShloMosaic.Lib.StableHlo.Run
import Idealize.ShloMosaic.Lib.ValueIdx

noncomputable section

open scoped BigOperators

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Idealize.ShloMosaic.StableHlo
open Idealize.ShloMosaic.Pipeline (Dat)
open Cert.AffineRelu

variable (m : (ℓ : Loc nD τ sig) → Buf (Elt Ideal) ℓ) (ρ : Dev nD → PrngReg)

theorem zero_offsets : (![0, 0] : Fin 2 → Nat) = fun _ => 0 := funext fun a => by fin_cases a <;> rfl

/-- The block index of each window at each of the 64 grid points: the activations and the result move down one block of rows
    per point; the weights and the bias stay at block `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The two arrays the program prepares before the grid -/

/-- The narrowed weights are the weights. -/
theorem staged_weights (c : Dev nD) (i : S4096x4096.Idx) :
    (V m c main_v0 : S4096x4096.Idx → EReal) i = (m ((c : Thread nD τ).loc main_arg1) : S4096x4096.Idx → EReal) i := by
  have e : (V m c main_v0 : S4096x4096.Idx → EReal) = (m ((c : Thread nD τ).loc main_arg1) : S4096x4096.Idx → EReal) := by
    dsimp only [Gen.V, Gen.hostOps0]; after_results; rfl
  rw [e]

/-- The bias as a row: entry `(0, n)` is entry `n` of the vector. -/
theorem staged_bias (c : Dev nD) (n : Fin 4096) :
    (V m c main_v1 : S1x4096.Idx → EReal) (ix2 (0 : Fin 1) n) = (m ((c : Thread nD τ).loc main_arg2) : S4096.Idx → EReal) (ix1 n) := by
  have e : (V m c main_v1 : S1x4096.Idx → EReal)
      = shapeCast S1x4096 (m ((c : Thread nD τ).loc main_arg2) : S4096.Idx → EReal) shapeCasts_S4096_S1x4096 := by
    dsimp only [Gen.V, Gen.hostOps0]; after_results; rfl
  rw [e]
  refine shapeCast_apply _ _ (ix2 (0 : Fin 1) n) (ix1 n) ?_
  rw [Shape.rowMajor_val_one, Shape.rowMajor_val_two]
  show n.val = 0 * 4096 + n.val
  omega

/-! ## Each window's block at a point, read off the argument arrays -/

/-- Row `p` of the activations' block at point `t` is row `128·t + p` of `x`. -/
theorem acts_block (c : Dev nD) (t : Fin cfg0.N) (y : S128x4096.Idx) (i : S8192x4096.Idx)
    (h0 : (i 0).val = 128 * t.val + (y 0).val) (h1 : (i 1).val = (y 1).val) :
    (iblk m c 0 t : Vec Ideal S128x4096 .f32) y = (m ((c : Thread nD τ).loc main_arg0) : S8192x4096.Idx → EReal) i := by
  obtain ⟨e0, e1, -⟩ := block_indices t
  unfold iblk
  rw [View.read_apply]
  show V m c main_arg0 (((cfg0.win 0).blk t).view.emb y) = _
  rw [V_main_arg0 m c]
  refine congrArg _ (funext fun a => Fin.ext ?_)
  match a with
  | ⟨0, _⟩ => show win0_0.index t (0 : Fin 2) * 128 + 1 * (y 0).val = (i 0).val; omega
  | ⟨1, _⟩ => show win0_0.index t (1 : Fin 2) * 4096 + 1 * (y 1).val = (i 1).val; omega

/-- The weights' block at every point is the whole weight matrix. -/
theorem weights_block (c : Dev nD) (t : Fin cfg0.N) (y : S4096x4096.Idx) :
    (iblk m c 1 t : Vec Ideal S4096x4096 .bf16) y = (m ((c : Thread nD τ).loc main_arg1) : S4096x4096.Idx → EReal) y := by
  obtain ⟨-, -, e2, e3, -⟩ := block_indices t
  unfold iblk
  rw [View.read_apply]
  show (V m c main_v0 : S4096x4096.Idx → EReal) (((cfg0.win 1).blk t).view.emb y) = _
  refine (staged_weights m c _).trans (congrArg _ (funext fun a => Fin.ext ?_))
  match a with
  | ⟨0, _⟩ => show win0_1.index t (0 : Fin 2) * 4096 + 1 * (y 0).val = (y 0).val; omega
  | ⟨1, _⟩ => show win0_1.index t (1 : Fin 2) * 4096 + 1 * (y 1).val = (y 1).val; omega

/-- The bias' block at every point is the whole bias row: its entry `(0, n)` is `b n`. -/
theorem bias_block (c : Dev nD) (t : Fin cfg0.N) (n : Fin 4096) :
    (iblk m c 2 t : Vec Ideal S1x4096 .f32) (ix2 (0 : Fin 1) n) = (m ((c : Thread nD τ).loc main_arg2) : S4096.Idx → EReal) (ix1 n) := by
  obtain ⟨-, -, -, -, e4, e5, -⟩ := block_indices t
  unfold iblk
  rw [View.read_apply]
  show (V m c main_v1 : S1x4096.Idx → EReal) (((cfg0.win 2).blk t).view.emb (ix2 (0 : Fin 1) n)) = _
  refine Eq.trans (congrArg _ (funext fun a => Fin.ext ?_)) (staged_bias m c n)
  match a with
  | ⟨0, _⟩ => show win0_2.index t (0 : Fin 2) * 1 + 1 * 0 = 0; omega
  | ⟨1, _⟩ => show win0_2.index t (1 : Fin 2) * 4096 + 1 * n.val = n.val; omega

/-! ## What a point writes back, the cover, the array -/

/-- The specification of the three argument arrays as core `c` was launched with them. -/
abbrev spec (c : Dev nD) : S8192x4096.Idx → EReal :=
  result (m ((c : Thread nD τ).loc main_arg0)) (m ((c : Thread nD τ).loc main_arg1)) (m ((c : Thread nD τ).loc main_arg2))

/-- WHAT POINT `t` WRITES BACK is block `t` of the specification. -/
theorem flushed_eq (c : Dev nD) (t : Fin cfg0.N) :
    (dats m 0 c).flushed 3 t = ((cfg0.win 3).blk t).view.read (Elt Ideal) (spec m c) := by
  rw [Value.flushed3]
  unfold out0_3
  rw [View.canon_unit_zero zero_offsets]
  simp only [View.ld_unit_zero (S := S128x4096) zero_offsets, View.ld_unit_zero (S := S4096x4096) zero_offsets,
    View.ld_unit_zero (S := S1x4096) zero_offsets]
  funext j
  obtain ⟨p, n, rfl⟩ : ∃ (p : Fin 128) (n : Fin 4096), j = ix2 p n := ⟨j 0, j 1, eq_ix2 j⟩
  show k0_pay1 (iblk m c 0 t) (iblk m c 1 t) (iblk m c 2 t) (ix2 p n)
    = result (m ((c : Thread nD τ).loc main_arg0)) (m ((c : Thread nD τ).loc main_arg1)) (m ((c : Thread nD τ).loc main_arg2))
        (((cfg0.win 3).blk t).view.emb (ix2 p n))
  obtain ⟨-, -, -, -, -, -, e6, e7⟩ := block_indices t
  have ht : t.val < 64 := by have h := t.isLt; have hN : cfg0.N = 64 := N_0; omega
  have hp : p.val < 128 := p.isLt
  rw [stored_entry, result_apply _ _ _ _ (⟨128 * t.val + p.val, by omega⟩ : Fin 8192) n
    (by show win0_3.index t (0 : Fin 2) * 128 + 1 * p.val = 128 * t.val + p.val; omega)
    (by show win0_3.index t (1 : Fin 2) * 4096 + 1 * n.val = n.val; omega)]
  unfold entry
  refine congrArg (fun s => max s 0) (congrArg₂ (· + ·) (Finset.sum_congr rfl fun k _ => congrArg₂ (· * ·) ?_ ?_) ?_)
  · exact acts_block m c t (ix2 p k) (ix2 (⟨128 * t.val + p.val, by omega⟩ : Fin 8192) k) rfl rfl
  · exact weights_block m c t (ix2 n k)
  · exact bias_block m c t n

/-- An index of the result array lies in point `t`'s block iff each coordinate lies in the block's range on its axis. -/
theorem mem_block (t : Fin cfg0.N) (i : S8192x4096.Idx) :
    i ∈ ((cfg0.win 3).blk t).view.set ↔ ∀ a : Fin 2, win0_3.index t a * S128x4096.size a ≤ (i a).val ∧ (i a).val < win0_3.index t a * S128x4096.size a + S128x4096.size a := by
  show i ∈ ((View.whole main_v2).slice (win0_3.rect t)).set ↔ _
  rw [View.set_slice_whole, Rect.mem_set_unit]
  exact Iff.rfl

/-- Every index of the result array lies in the block of the point `(its row) / 128`. -/
theorem covered (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 64 := N_0
  let t : Fin cfg0.N := ⟨(i 0).val / 128, by rw [hN]; omega⟩
  obtain ⟨-, -, -, -, -, -, e6, e7⟩ := block_indices t
  have e6' : win0_3.index t (0 : Fin 2) = (i 0).val / 128 := e6
  refine ⟨t, flush0_3 t, ?_⟩
  rw [mem_block]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 4096 ≤ (i 1).val ∧ (i 1).val < win0_3.index t (1 : Fin 2) * 4096 + 4096; omega

/-- THE RESULT ARRAY after the run is the specification. -/
theorem final (c : Dev nD) : (dats m 0 c).arrAt 3 cfg0.N = spec m c :=
  (dats m 0 c).arrAt_eq_of_cover 3 (spec m c) (fun t _ => flushed_eq m c t) covered

/-- The run, read: every weakly fair execution ends with the result array at the specification of the argument arrays,
    which are left as they were. -/
theorem run : θ_run defs (onTc (τ := τ) (main (F := Ideal))) ⟨m, fun _ => 0, ρ⟩ fun r => ∀ c : Dev nD,
      r.2.mem ((c : Thread nD τ).loc main_v2) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  The five claims about a dense affine layer followed by a rectifier,
      y[r, n] = max (Σ_k x[r, k] · w[n, k] + b[n]) 0      for x : 8192 × 4096, w : 4096 × 4096, b : 4096.
  The kernel computes it 128 rows at a time over a grid of 64 points, with the whole weight matrix and the bias (as a
  1 × 4096 row) resident, the contraction over axis 1 of both operands into a zero accumulator; the reference transposes the
  weights and contracts axis 1 of `x` with axis 0 of the transpose, then adds the repeated bias and takes the maximum with a
  zero splat. At the ideal values the two narrowings to the matrix unit's input format are the identity, so both compute the
  same finite sums of the same products, the same bias and the same maximum with `0`: entry by entry they are one term of the
  extended reals (Proof/Spec.lean), with no use of the inputs' finiteness. The kernel's value is read block by block and the
  blocks assembled into the array in Proof/KernelSide.lean (over Proof/Payload.lean, the body's stored value at an entry); the
  reference's composed term is that function in Proof/RefSide.lean. Each program's termination, freedom from faults and
  unchanged arguments come from its run; the idealization rewrote nothing, so there is nothing to preserve.
-/
import proofs.«129855_j65609920413834_2_alg».proof.Defs
import proofs.«129855_j65609920413834_2_alg».proof.Proof.Gen.Kernel
import proofs.«129855_j65609920413834_2_alg».proof.Proof.Gen.Kernel.Skeleton
import proofs.«129855_j65609920413834_2_alg».proof.Proof.Gen.Kernel.Launch
import proofs.«129855_j65609920413834_2_alg».proof.Proof.Gen.Kernel.Points
import proofs.«129855_j65609920413834_2_alg».proof.Proof.Gen.Kernel.Frame
import proofs.«129855_j65609920413834_2_alg».proof.Proof.Gen.KernelIdeal
import proofs.«129855_j65609920413834_2_alg».proof.Proof.Gen.KernelIdeal.Skeleton
import proofs.«129855_j65609920413834_2_alg».proof.Proof.Gen.KernelIdeal.Launch
import proofs.«129855_j65609920413834_2_alg».proof.Proof.Gen.KernelIdeal.Points
import proofs.«129855_j65609920413834_2_alg».proof.Proof.Gen.KernelIdeal.Frame
import proofs.«129855_j65609920413834_2_alg».proof.Proof.Gen.ReferenceIdeal
import proofs.«129855_j65609920413834_2_alg».proof.Proof.Gen.Pre_finite_inputs
import proofs.«129855_j65609920413834_2_alg».proof.Proof.Gen.KernelIdeal.Value
import proofs.«129855_j65609920413834_2_alg».proof.Proof.Gen.ReferenceIdeal.Run
import proofs.«129855_j65609920413834_2_alg».proof.Proof.Gen.ReferenceIdeal.Read
import proofs.«129855_j65609920413834_2_alg».proof.Proof.Spec
import proofs.«129855_j65609920413834_2_alg».proof.Proof.RefSide
import proofs.«129855_j65609920413834_2_alg».proof.Proof.KernelSide
import Idealize.ShloMosaic.Adequacy
import Idealize.ShloMosaic.Init

noncomputable section

namespace Cert.Proof

open Idealize.ShloMosaic Idealize.SL.Sem

/-- The kernel as printed runs to the end without a fault and leaves its three arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference is a straight line of array operations: its run ends, and writes none of its arguments. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel at the ideal values replaced no operation, so nothing is owed for it. -/
theorem preserves : Cert.preserves_Kernel_KernelIdeal := trivial

/-- From memories that agree on `x`, `w` and `b`, the kernel's result array and the reference's both end holding
    `max (Σ_k x[r, k] · w[n, k] + b[n]) 0` at every index `(r, n)`: the kernel's 64 row blocks assembled, the reference's
    composed term read at an index. -/
theorem algebraic : Cert.algebraic_KernelIdeal_ReferenceIdeal := by
  intro m ρ m' ρ' _ hagree
  refine ⟨fun c => Cert.KernelIdeal.Whole.spec m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v5_eq _ _ _).trans (Cert.ReferenceIdeal.RefValue.reference_eq _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
